-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S8x2048x1024 : Shape := ⟨3, ![8, 2048, 1024]⟩
abbrev S16384 : Shape := ⟨1, ![16384]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S8x2048x1024 : S_.BroadcastsInDim S8x2048x1024 (![] : Fin 0 → Fin S8x2048x1024.rank)
  reducesTo_S8x2048x1024_S_d0_1_2 : S8x2048x1024.ReducesTo [0, 1, 2] S_

variable [Facts]

def fn_part1 {F : FTy → Type} [FloatOps F] (main_v13 : IVec S_ 1) (main_v16 : IVec S8x2048x1024 1) : IVec S_ 1 :=
  let main_c_5 : IVec S_ 1 := constantI S_ 1 1#1
  let main_v17 : IVec S_ 1 := (fun x v => Host.reduce IntOp.andi x v reducesTo_S8x2048x1024_S_d0_1_2 h_S_) main_v16 main_c_5
  let main_v18 : IVec S_ 1 := andi main_v13 main_v17
  main_v18

def fn {F : FTy → Type} [FloatOps F] (main_arg0 : FVec F S16384x1024 .f32) (main_arg1 : FVec F S8x2048x1024 .f32) (main_arg2 : FVec F S8x2048x1024 .f32) (main_arg3 : FVec F S8x2048x1024 .f32) (main_arg4 : IVec S16384 32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S8x2048x1024 .f32 := Host.absf main_arg3
  let main_cst_4 : FVec F S_ .f32 := constant S_ .f32 0x7F800000#32
  let main_v15 : FVec F S8x2048x1024 .f32 := broadcastInDim S8x2048x1024 ![] bcast_S_S8x2048x1024 main_cst_4
  let main_v16 : IVec S8x2048x1024 1 := cmpf .olt main_v14 main_v15
  fn_part1 (F := F) main_v13 main_v16
-- ==== Kernel.lean ====
abbrev S16384x1024 : Shape := ⟨2, ![16384, 1024]⟩
abbrev S8x2048x1024 : Shape := ⟨3, ![8, 2048, 1024]⟩
abbrev S16384 : Shape := ⟨1, ![16384]⟩
abbrev S256x1024 : Shape := ⟨2, ![256, 1024]⟩
abbrev S1x2048x1024 : Shape := ⟨3, ![1, 2048, 1024]⟩
abbrev S2048x1024 : Shape := ⟨2, ![2048, 1024]⟩
abbrev S256x2048 : Shape := ⟨2, ![256, 2048]⟩

abbrev nBuf : Space → Nat
  | .hbm => 10
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S8x2048x1024, .f32⟩
  | .hbm, ⟨2, _⟩ => ⟨S8x2048x1024, .f32⟩
  | .hbm, ⟨3, _⟩ => ⟨S8x2048x1024, .f32⟩
  | .hbm, ⟨4, _⟩ => ⟨S16384, .i32⟩
  | .hbm, ⟨5, _⟩ => ⟨S16384x1024, .bf16⟩
  | .hbm, ⟨6, _⟩ => ⟨S8x2048x1024, .bf16⟩
  | .hbm, ⟨7, _⟩ => ⟨S8x2048x1024, .bf16⟩
  | .hbm, ⟨8, _⟩ => ⟨S8x2048x1024, .bf16⟩
  | .hbm, ⟨9, _⟩ => ⟨S16384x1024, .f32⟩
  | .local _ .vmem, ⟨0, _⟩ => ⟨S256x1024, .bf16⟩
  | .local _ .vmem, ⟨1, _⟩ => ⟨S256x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S256x1024, .f32⟩
  | .local _ .vmem, ⟨9, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .bf16 = 32 ∨ (Rect.block (s := S16384x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x1024.size a
  hwx0_1 : ∀ i : grid0.Coords, EltTy.bits .bf16 = 32 ∨ (Rect.block (s := S8x2048x1024) S1x2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S8x2048x1024.size a
  hwx0_2 : ∀ i : grid0.Coords, EltTy.bits .bf16 = 32 ∨ (Rect.block (s := S8x2048x1024) S1x2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S8x2048x1024.size a
  hwx0_3 : ∀ i : grid0.Coords, EltTy.bits .bf16 = 32 ∨ (Rect.block (s := S8x2048x1024) S1x2048x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S16384x1024.size a
  hwx0_4 : ∀ i : grid0.Coords, EltTy.bits .f32 = 32 ∨ (Rect.block (s := S16384x1024) S256x1024.size (cc0_transform_4 i) (hinb0_4 i)).WholeWords (EltTy.packing .f32)

variable [Facts₀]

def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S8x2048x1024 : Shape := ⟨3, ![8, 2048, 1024]⟩
abbrev S16384 : Shape := ⟨1, ![16384]⟩
abbrev S8x2048x2048 : Shape := ⟨3, ![8, 2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x2048x1024, .f32⟩
  | .hbm, ⟨2, _⟩ => ⟨S8x2048x1024, .f32⟩
  | .hbm, ⟨3, _⟩ => ⟨S8x2048x1024, .f32⟩
  | .hbm, ⟨4, _⟩ => ⟨S16384, .i32⟩
  | .hbm, ⟨5, _⟩ => ⟨S8x2048x1024, .f32⟩
  | .hbm, ⟨6, _⟩ => ⟨S8x2048x2048, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S8x2048x1024, .f32⟩
  | .hbm, ⟨19, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]

class Facts₀ : Prop where
  shapeCasts_S16384x1024_S8x2048x1024 : S16384x1024.ShapeCasts S8x2048x1024
  bcast_S_S8x2048x2048 : S_.BroadcastsInDim S8x2048x2048 (![] : Fin 0 → Fin S8x2048x2048.rank)
  shapeCasts_S8x2048x1024_S16384x1024 : S8x2048x1024.ShapeCasts S16384x1024
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Spec.lean ====
/-
  The function both programs compute, over the extended reals.

  Tokens are rows of a 16384 × 1024 array, grouped 2048 to an expert; expert `e` owns three 2048 × 1024 weight
  matrices W1, W2, W3. For a token row `x` of expert `e` and an output column `c`,

      out c = ∑ f, (h1 f · σ (h1 f) · h3 f) · W2 f c,    h1 f = ∑ k, x k · W1 f k,    h3 f = ∑ k, x k · W3 f k,

  with σ y = 1 / (1 + e^(-y)) read on the extended reals (`Ideal.logistic`). `swiglu` is that number as a function of
  the row, of the two weight matrices the row is projected by, and of the column of the third; `G` is the whole
  result array: entry (r, c) is `swiglu` of row `r` and the weights of the expert `r / 2048`.
-/
import Idealize.ShloMosaic.PureOps.Ideal
import Idealize.ShloMosaic.Lib.ValueIdx

noncomputable section

open scoped BigOperators

namespace Cert.GroupedSwiglu

open Idealize.ShloMosaic Idealize.ShloMosaic.ValueIdx

/-- The inner product of a token row with one weight row. -/
def dot (a b : Fin 1024 → EReal) : EReal := ∑ k : Fin 1024, a k * b k

/-- One output entry: the gated hidden activations `h1 · σ h1 · h3`, contracted with one column of the third matrix. -/
def swiglu (x : Fin 1024 → EReal) (W1 W3 : Fin 2048 → Fin 1024 → EReal) (W2c : Fin 2048 → EReal) : EReal :=
  ∑ f : Fin 2048, (dot x (W1 f) * Ideal.logistic (dot x (W1 f)) * dot x (W3 f)) * W2c f

/-- The expert that owns token row `r`. -/
def expertOf (r : Fin 16384) : Fin 8 := ⟨r.val / 2048, by have := r.isLt; omega⟩

/-- Entry (r, c) of the result. -/
def entry (x : (⟨2, ![16384, 1024]⟩ : Shape).Idx → EReal) (w1 w2 w3 : (⟨3, ![8, 2048, 1024]⟩ : Shape).Idx → EReal)
    (r : Fin 16384) (c : Fin 1024) : EReal :=
  swiglu (fun k => x (ix2 r k)) (fun f k => w1 (ix3 (expertOf r) f k)) (fun f k => w3 (ix3 (expertOf r) f k))
    (fun f => w2 (ix3 (expertOf r) f c))

/-- The result array as one function of the four argument arrays. -/
def G (x : (⟨2, ![16384, 1024]⟩ : Shape).Idx → EReal) (w1 w2 w3 : (⟨3, ![8, 2048, 1024]⟩ : Shape).Idx → EReal) :
    (⟨2, ![16384, 1024]⟩ : Shape).Idx → EReal :=
  fun i => entry x w1 w2 w3 (i 0) (i 1)

theorem G_apply (x : (⟨2, ![16384, 1024]⟩ : Shape).Idx → EReal) (w1 w2 w3 : (⟨3, ![8, 2048, 1024]⟩ : Shape).Idx → EReal)
    (r : Fin 16384) (c : Fin 1024) : G x w1 w2 w3 (ix2 r c) = entry x w1 w2 w3 r c := rfl

/-- The pattern of `1.0` denotes the real one. -/
theorem one_f32 : Ideal.ofBits .f32 0x3F800000#32 = 1 := by
  simp [Ideal.ofBits, Ideal.ieee, -EReal.coe_mul]; norm_num

/-- The quotient `1 / (1 + e^(-y))` spelt with the pattern of `1.0` is σ y. -/
theorem logistic_spelt (y : EReal) :
    Ideal.div (Ideal.ofBits .f32 0x3F800000#32) (Ideal.ofBits .f32 0x3F800000#32 + Ideal.exp (-y)) = Ideal.logistic y := by
  rw [one_f32]; rfl

end Cert.GroupedSwiglu

end
-- ==== Proof.KernelBody.lean ====
/-
  What the kernel body computes from its four blocks, entry by entry.

  At a grid point the body holds a 256 × 1024 block of token rows and, for the point's expert, the three weight
  matrices as [1, 2048, 1024] blocks. It forms the two projections of the token block by products contracted over the
  feature axis (an accumulator of zeros adds nothing), gates them (`h1 · σ h1 · h3`; the change of float format that
  follows is the identity on the extended reals) and contracts the gated activations with the third matrix over the
  hidden axis. Entry (p, q) of the stored block is therefore `swiglu` of token row `p` of the block, of the first and
  third matrices, and of column `q` of the second.
-/
import proofs.«148012_j66692252172319_2_alg».proof.Proof.Gen.KernelIdeal.Skeleton
import proofs.«148012_j66692252172319_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.GroupedSwiglu.Body

open Cert.KernelIdeal Cert.KernelIdeal.Gen Idealize.ShloMosaic Idealize.ShloMosaic.ValueIdx Cert.GroupedSwiglu

/-- The first product keeps the block's row axis: the block is read at the result's row. -/
theorem project_lhs_row (j : S256x2048.Idx) (q : dot_S256x1024_S2048x1024_S256x2048_1_1_0_0_n_n.contr.Idx) :
    (dot_S256x1024_S2048x1024_S256x2048_1_1_0_0_n_n.lhsIdx j q 0).val = (j 0).val := by
  unfold DotDims.lhsIdx
  rw [dif_neg (show ¬(0 : Fin S256x1024.rank) ∈ dot_S256x1024_S2048x1024_S256x2048_1_1_0_0_n_n.lhsBatch by decide),
    dif_pos (show (0 : Fin S256x1024.rank) ∈ dot_S256x1024_S2048x1024_S256x2048_1_1_0_0_n_n.lhsNonContracting by decide)]
  rfl
/-- The matrix is read at the row the result's column names. -/
theorem project_rhs_row (j : S256x2048.Idx) (q : dot_S256x1024_S2048x1024_S256x2048_1_1_0_0_n_n.contr.Idx) :
    (dot_S256x1024_S2048x1024_S256x2048_1_1_0_0_n_n.rhsIdx j q 0).val = (j 1).val := by
  unfold DotDims.rhsIdx
  rw [dif_neg (show ¬(0 : Fin S2048x1024.rank) ∈ dot_S256x1024_S2048x1024_S256x2048_1_1_0_0_n_n.rhsBatch by decide),
    dif_pos (show (0 : Fin S2048x1024.rank) ∈ dot_S256x1024_S2048x1024_S256x2048_1_1_0_0_n_n.rhsNonContracting by decide)]
  rfl

/-- A product of a [256, 1024] block with a [2048, 1024] matrix, contracted over the SECOND axis of both, into zeros:
    entry (p, f) is the inner product of row `p` of the block with row `f` of the matrix. -/
theorem project_apply (a : FVec Ideal S256x1024 .bf16) (b : FVec Ideal S2048x1024 .bf16) (p : Fin 256) (f : Fin 2048) :
    matmul (F := Ideal) dot_S256x1024_S2048x1024_S256x2048_1_1_0_0_n_n none a b (constant (F := Ideal) S256x2048 .f32 0x00000000#32) (ix2 p f)
      = dot (fun k => a (ix2 p k)) (fun k => b (ix2 f k)) := by
  simp only [matmul]
  rw [Ideal.matmul_constant_zero_apply,
    ← Equiv.sum_comp (contrEquiv1 dot_S256x1024_S2048x1024_S256x2048_1_1_0_0_n_n 1024 rfl rfl).symm]
  unfold dot
  refine Finset.sum_congr rfl fun k _ => ?_
  have hk := contrEquiv1_symm_val dot_S256x1024_S2048x1024_S256x2048_1_1_0_0_n_n 1024 rfl rfl k
  have el : dot_S256x1024_S2048x1024_S256x2048_1_1_0_0_n_n.lhsIdx (ix2 p f) ((contrEquiv1 dot_S256x1024_S2048x1024_S256x2048_1_1_0_0_n_n 1024 rfl rfl).symm k) = ix2 p k := funext fun d => Fin.ext (by
    match d with
    | ⟨0, _⟩ => exact project_lhs_row _ _
    | ⟨1, _⟩ => exact (dot_S256x1024_S2048x1024_S256x2048_1_1_0_0_n_n.lhsIdx_val_of_single rfl _ _).trans hk)
  have er : dot_S256x1024_S2048x1024_S256x2048_1_1_0_0_n_n.rhsIdx (ix2 p f) ((contrEquiv1 dot_S256x1024_S2048x1024_S256x2048_1_1_0_0_n_n 1024 rfl rfl).symm k) = ix2 f k := funext fun d => Fin.ext (by
    match d with
    | ⟨0, _⟩ => exact project_rhs_row _ _
    | ⟨1, _⟩ => exact (dot_S256x1024_S2048x1024_S256x2048_1_1_0_0_n_n.rhsIdx_val_of_single rfl _ _).trans hk)
  rw [el, er]

/-- The last product keeps the gated block's row axis … -/
theorem contract_lhs_row (j : S256x1024.Idx) (q : dot_S256x2048_S2048x1024_S256x1024_1_0_0_1_n_n.contr.Idx) :
    (dot_S256x2048_S2048x1024_S256x1024_1_0_0_1_n_n.lhsIdx j q 0).val = (j 0).val := by
  unfold DotDims.lhsIdx
  rw [dif_neg (show ¬(0 : Fin S256x2048.rank) ∈ dot_S256x2048_S2048x1024_S256x1024_1_0_0_1_n_n.lhsBatch by decide),
    dif_pos (show (0 : Fin S256x2048.rank) ∈ dot_S256x2048_S2048x1024_S256x1024_1_0_0_1_n_n.lhsNonContracting by decide)]
  rfl
/-- … and the matrix's column axis. -/
theorem contract_rhs_col (j : S256x1024.Idx) (q : dot_S256x2048_S2048x1024_S256x1024_1_0_0_1_n_n.contr.Idx) :
    (dot_S256x2048_S2048x1024_S256x1024_1_0_0_1_n_n.rhsIdx j q 1).val = (j 1).val := by
  unfold DotDims.rhsIdx
  rw [dif_neg (show ¬(1 : Fin S2048x1024.rank) ∈ dot_S256x2048_S2048x1024_S256x1024_1_0_0_1_n_n.rhsBatch by decide),
    dif_pos (show (1 : Fin S2048x1024.rank) ∈ dot_S256x2048_S2048x1024_S256x1024_1_0_0_1_n_n.rhsNonContracting by decide)]
  rfl

/-- A product of a [256, 2048] block with a [2048, 1024] matrix, contracted over the block's second axis and the
    matrix's first, into zeros: entry (p, q) is the sum over `f` of the block's (p, f) times the matrix's (f, q). -/
theorem contract_apply (a : FVec Ideal S256x2048 .bf16) (b : FVec Ideal S2048x1024 .bf16) (p : Fin 256) (q : Fin 1024) :
    matmul (F := Ideal) dot_S256x2048_S2048x1024_S256x1024_1_0_0_1_n_n none a b (constant (F := Ideal) S256x1024 .f32 0x00000000#32) (ix2 p q)
      = ∑ f : Fin 2048, a (ix2 p f) * b (ix2 f q) := by
  simp only [matmul]
  rw [Ideal.matmul_constant_zero_apply,
    ← Equiv.sum_comp (contrEquiv1 dot_S256x2048_S2048x1024_S256x1024_1_0_0_1_n_n 2048 rfl rfl).symm]
  refine Finset.sum_congr rfl fun f _ => ?_
  have hf := contrEquiv1_symm_val dot_S256x2048_S2048x1024_S256x1024_1_0_0_1_n_n 2048 rfl rfl f
  have el : dot_S256x2048_S2048x1024_S256x1024_1_0_0_1_n_n.lhsIdx (ix2 p q) ((contrEquiv1 dot_S256x2048_S2048x1024_S256x1024_1_0_0_1_n_n 2048 rfl rfl).symm f) = ix2 p f := funext fun d => Fin.ext (by
    match d with
    | ⟨0, _⟩ => exact contract_lhs_row _ _
    | ⟨1, _⟩ => exact (dot_S256x2048_S2048x1024_S256x1024_1_0_0_1_n_n.lhsIdx_val_of_single rfl _ _).trans hf)
  have er : dot_S256x2048_S2048x1024_S256x1024_1_0_0_1_n_n.rhsIdx (ix2 p q) ((contrEquiv1 dot_S256x2048_S2048x1024_S256x1024_1_0_0_1_n_n 2048 rfl rfl).symm f) = ix2 f q := funext fun d => Fin.ext (by
    match d with
    | ⟨0, _⟩ => exact (dot_S256x2048_S2048x1024_S256x1024_1_0_0_1_n_n.rhsIdx_val_of_single rfl _ _).trans hf
    | ⟨1, _⟩ => exact contract_rhs_col _ _)
  rw [el, er]

/-- A weight block [1, 2048, 1024] viewed as the matrix [2048, 1024]: entry (f, k) is the block's (0, f, k). -/
theorem matrix_apply (w : FVec Ideal S1x2048x1024 .bf16) (f : Fin 2048) (k : Fin 1024) :
    shapeCast S2048x1024 w shapeCasts_S1x2048x1024_S2048x1024 (ix2 f k) = w (ix3 (0 : Fin 1) f k) :=
  shapeCast_1ab_ab_apply w shapeCasts_S1x2048x1024_S2048x1024 f k

/-- σ of a block, entry by entry. -/
theorem logistic_apply (v : FVec Ideal S256x2048 .f32) (i : S256x2048.Idx) : logistic v i = Ideal.logistic (v i) := rfl

/-- ENTRY (p, q) OF THE STORED BLOCK: `swiglu` of row `p` of the token block, the first and third matrices, and
    column `q` of the second. -/
theorem stored_apply (x : FVec Ideal S256x1024 .bf16) (wa wb wc : FVec Ideal S1x2048x1024 .bf16) (p : Fin 256) (q : Fin 1024) :
    k0_pay1 (F := Ideal) x wa wb wc (ix2 p q)
      = swiglu (fun k => x (ix2 p k)) (fun f k => wa (ix3 (0 : Fin 1) f k)) (fun f k => wb (ix3 (0 : Fin 1) f k))
          (fun f => wc (ix3 (0 : Fin 1) f q)) := by
  unfold k0_pay1
  rw [shapeCast_self]
  refine (contract_apply _ _ p q).trans ?_
  unfold swiglu
  refine Finset.sum_congr rfl fun f _ => ?_
  rw [matrix_apply wc f q]
  refine congrArg (· * wc (ix3 (0 : Fin 1) f q)) ?_
  rw [truncf_apply, mulf_apply, mulf_apply, logistic_apply, project_apply, project_apply]
  simp only [matrix_apply]

end Cert.GroupedSwiglu.Body

end
-- ==== Proof.KernelValue.lean ====
/-
  The kernel's result array is `G`.

  The grid is 8 experts × 8 token tiles. Point (e, s) reads token block e · 8 + s (256 rows, all 1024 features), the
  three weight matrices of expert `e` whole, and writes result block e · 8 + s. The arrays the blocks are cut from are
  the argument arrays themselves: the change of float format applied to them before the launch is the identity on the
  extended reals. Row `p` of block `b` is row b · 256 + p of the array, whose expert is (b · 256 + p) / 2048 = b / 8 = e,
  so by the body's entry formula each point writes back exactly its block of `G`; the 64 blocks tile the 16384 rows,
  so the array ends as `G`.
-/
import proofs.«148012_j66692252172319_2_alg».proof.Proof.Gen.KernelIdeal.Value
import proofs.«148012_j66692252172319_2_alg».proof.Proof.KernelBody
import Idealize.ShloMosaic.Lib.StableHlo.Run

noncomputable section

open scoped BigOperators

namespace Cert.GroupedSwiglu.Kernel

open Cert.KernelIdeal Cert.KernelIdeal.Gen Idealize.ShloMosaic Idealize.ShloMosaic.TcCoe Idealize.SL.Sem
open Idealize.ShloMosaic.ValueIdx Cert.GroupedSwiglu
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin3 : (![0, 0, 0] : Fin 3 → Nat) = fun _ => 0 := funext fun a => by fin_cases a <;> rfl

/-! ## The staged arrays are the arguments -/

theorem staged_tokens (c : Dev nD) :
    (V m c main_v0 : S16384x1024.Idx → EReal) = m ((c : Thread nD τ).loc main_arg0) := by
  dsimp only [Gen.V, Gen.hostOps0]; after_results; rfl
theorem staged_first (c : Dev nD) :
    (V m c main_v1 : S8x2048x1024.Idx → EReal) = m ((c : Thread nD τ).loc main_arg1) := by
  dsimp only [Gen.V, Gen.hostOps0]; after_results; rfl
theorem staged_second (c : Dev nD) :
    (V m c main_v2 : S8x2048x1024.Idx → EReal) = m ((c : Thread nD τ).loc main_arg2) := by
  dsimp only [Gen.V, Gen.hostOps0]; after_results; rfl
theorem staged_third (c : Dev nD) :
    (V m c main_v3 : S8x2048x1024.Idx → EReal) = m ((c : Thread nD τ).loc main_arg3) := by
  dsimp only [Gen.V, Gen.hostOps0]; after_results; rfl

/-! ## Where the blocks sit -/

/-- The printed index maps over the 64 points: the token block and the result block have the same row index, below 64,
    and column index 0; each weight block is matrix number (row index / 8) of its stack, whole. -/
theorem block_indices : ∀ t : Fin cfg0.N,
    win0_0.index t (0 : Fin 2) = win0_4.index t (0 : Fin 2) ∧ win0_0.index t (1 : Fin 2) = 0
    ∧ win0_4.index t (0 : Fin 2) < 64 ∧ win0_4.index t (1 : Fin 2) = 0
    ∧ win0_1.index t (0 : Fin 3) = win0_4.index t (0 : Fin 2) / 8 ∧ win0_1.index t (1 : Fin 3) = 0 ∧ win0_1.index t (2 : Fin 3) = 0
    ∧ win0_2.index t (0 : Fin 3) = win0_4.index t (0 : Fin 2) / 8 ∧ win0_2.index t (1 : Fin 3) = 0 ∧ win0_2.index t (2 : Fin 3) = 0
    ∧ win0_3.index t (0 : Fin 3) = win0_4.index t (0 : Fin 2) / 8 ∧ win0_3.index t (1 : Fin 3) = 0 ∧ win0_3.index t (2 : Fin 3) = 0 :=
  (by decide +kernel : ∀ t : Fin grid0.N, _)

/-- Every one of the 64 row blocks is some point's. -/
theorem block_onto : ∀ b : Fin 64, ∃ t : Fin cfg0.N, win0_4.index t = ![b.val, 0] :=
  (by decide +kernel : ∀ b : Fin 64, ∃ t : Fin grid0.N, win0_4.index t = ![b.val, 0])

/-! ## One entry of a block, from blocks cut out of arrays -/

/-- If a token block is rows b · 256 … of an array `X` and the three weight blocks are matrix b / 8 of stacks
    `W1`, `W2`, `W3`, entry (p, q) of what the body stores is entry (b · 256 + p, q) of `G X W1 W2 W3`. -/
theorem stored_is_G (x : FVec Ideal S256x1024 .bf16) (wa wb wc : FVec Ideal S1x2048x1024 .bf16)
    (X : FVec Ideal S16384x1024 .f32) (W1 W2 W3 : FVec Ideal S8x2048x1024 .f32)
    (b : Nat) (hb : b < 64) (p : Fin 256) (q : Fin 1024)
    (hx : ∀ k : Fin 1024, x (ix2 p k) = X (ix2 (⟨b * 256 + p.val, by have := p.isLt; omega⟩ : Fin 16384) k))
    (ha : ∀ (f : Fin 2048) (k : Fin 1024), wa (ix3 (0 : Fin 1) f k) = W1 (ix3 (⟨b / 8, by omega⟩ : Fin 8) f k))
    (hb' : ∀ (f : Fin 2048) (k : Fin 1024), wb (ix3 (0 : Fin 1) f k) = W3 (ix3 (⟨b / 8, by omega⟩ : Fin 8) f k))
    (hc : ∀ (f : Fin 2048) (k : Fin 1024), wc (ix3 (0 : Fin 1) f k) = W2 (ix3 (⟨b / 8, by omega⟩ : Fin 8) f k)) :
    k0_pay1 (F := Ideal) x wa wb wc (ix2 p q)
      = G X W1 W2 W3 (ix2 (⟨b * 256 + p.val, by have := p.isLt; omega⟩ : Fin 16384) q) := by
  have he : expertOf (⟨b * 256 + p.val, by have := p.isLt; omega⟩ : Fin 16384) = (⟨b / 8, by omega⟩ : Fin 8) :=
    Fin.ext (by have := p.isLt; show (b * 256 + p.val) / 2048 = b / 8; omega)
  rw [Body.stored_apply, G_apply]
  unfold entry
  rw [he]
  simp only [hx, ha, hb', hc]

/-! ## The blocks at a point, read off the argument arrays -/

/-- Entry (p, k) of the token block at point `t` is entry (b · 256 + p, k) of the token array, `b` the point's row block. -/
theorem token_block (c : Dev nD) (t : Fin cfg0.N) (p : Fin 256) (k : Fin 1024) (i : S16384x1024.Idx)
    (h0 : (i 0).val = win0_4.index t (0 : Fin 2) * 256 + p.val) (h1 : (i 1).val = k.val) :
    (iblk m c 0 t : Vec Ideal S256x1024 .bf16) (ix2 p k) = ((m ((c : Thread nD τ).loc main_arg0)) : S16384x1024.Idx → EReal) i := by
  obtain ⟨e0, e1, -⟩ := block_indices t
  unfold iblk
  rw [View.read_apply]
  show V m c main_v0 _ = _
  rw [staged_tokens m c]
  refine congrArg _ (funext fun a => Fin.ext ?_)
  match a with
  | ⟨0, _⟩ => show win0_0.index t (0 : Fin 2) * 256 + 1 * p.val = (i 0).val; omega
  | ⟨1, _⟩ => show win0_0.index t (1 : Fin 2) * 1024 + 1 * k.val = (i 1).val; omega

/-- Entry (0, f, k) of the first weight block at point `t` is entry (b / 8, f, k) of the first stack. -/
theorem first_block (c : Dev nD) (t : Fin cfg0.N) (f : Fin 2048) (k : Fin 1024) (i : S8x2048x1024.Idx)
    (h0 : (i 0).val = win0_4.index t (0 : Fin 2) / 8) (h1 : (i 1).val = f.val) (h2 : (i 2).val = k.val) :
    (iblk m c 1 t : Vec Ideal S1x2048x1024 .bf16) (ix3 (0 : Fin 1) f k) = ((m ((c : Thread nD τ).loc main_arg1)) : S8x2048x1024.Idx → EReal) i := by
  obtain ⟨-, -, -, -, a0, a1, a2, b0, b1, b2, c0, c1, c2⟩ := block_indices t
  unfold iblk
  rw [View.read_apply]
  show V m c main_v1 _ = _
  rw [staged_first m c]
  refine congrArg _ (funext fun a => Fin.ext ?_)
  match a with
  | ⟨0, _⟩ => show win0_1.index t (0 : Fin 3) * 1 + 1 * 0 = (i 0).val; omega
  | ⟨1, _⟩ => show win0_1.index t (1 : Fin 3) * 2048 + 1 * f.val = (i 1).val; omega
  | ⟨2, _⟩ => show win0_1.index t (2 : Fin 3) * 1024 + 1 * k.val = (i 2).val; omega

/-- The same for the second stack. -/
theorem second_block (c : Dev nD) (t : Fin cfg0.N) (f : Fin 2048) (k : Fin 1024) (i : S8x2048x1024.Idx)
    (h0 : (i 0).val = win0_4.index t (0 : Fin 2) / 8) (h1 : (i 1).val = f.val) (h2 : (i 2).val = k.val) :
    (iblk m c 2 t : Vec Ideal S1x2048x1024 .bf16) (ix3 (0 : Fin 1) f k) = ((m ((c : Thread nD τ).loc main_arg2)) : S8x2048x1024.Idx → EReal) i := by
  obtain ⟨-, -, -, -, a0, a1, a2, b0, b1, b2, c0, c1, c2⟩ := block_indices t
  unfold iblk
  rw [View.read_apply]
  show V m c main_v2 _ = _
  rw [staged_second m c]
  refine congrArg _ (funext fun a => Fin.ext ?_)
  match a with
  | ⟨0, _⟩ => show win0_2.index t (0 : Fin 3) * 1 + 1 * 0 = (i 0).val; omega
  | ⟨1, _⟩ => show win0_2.index t (1 : Fin 3) * 2048 + 1 * f.val = (i 1).val; omega
  | ⟨2, _⟩ => show win0_2.index t (2 : Fin 3) * 1024 + 1 * k.val = (i 2).val; omega

/-- The same for the third stack. -/
theorem third_block (c : Dev nD) (t : Fin cfg0.N) (f : Fin 2048) (k : Fin 1024) (i : S8x2048x1024.Idx)
    (h0 : (i 0).val = win0_4.index t (0 : Fin 2) / 8) (h1 : (i 1).val = f.val) (h2 : (i 2).val = k.val) :
    (iblk m c 3 t : Vec Ideal S1x2048x1024 .bf16) (ix3 (0 : Fin 1) f k) = ((m ((c : Thread nD τ).loc main_arg3)) : S8x2048x1024.Idx → EReal) i := by
  obtain ⟨-, -, -, -, a0, a1, a2, b0, b1, b2, c0, c1, c2⟩ := block_indices t
  unfold iblk
  rw [View.read_apply]
  show V m c main_v3 _ = _
  rw [staged_third m c]
  refine congrArg _ (funext fun a => Fin.ext ?_)
  match a with
  | ⟨0, _⟩ => show win0_3.index t (0 : Fin 3) * 1 + 1 * 0 = (i 0).val; omega
  | ⟨1, _⟩ => show win0_3.index t (1 : Fin 3) * 2048 + 1 * f.val = (i 1).val; omega
  | ⟨2, _⟩ => show win0_3.index t (2 : Fin 3) * 1024 + 1 * k.val = (i 2).val; omega

/-! ## What a point writes back, the cover, the array -/

/-- WHAT POINT `t` WRITES BACK is block `t` of `G` of the argument arrays. -/
theorem flushed_eq (c : Dev nD) (t : Fin cfg0.N) :
    (dats m 0 c).flushed 4 t = ((cfg0.win 4).blk t).view.read (Elt Ideal) (G (m ((c : Thread nD τ).loc main_arg0)) (m ((c : Thread nD τ).loc main_arg1)) (m ((c : Thread nD τ).loc main_arg2)) (m ((c : Thread nD τ).loc main_arg3))) := by
  rw [Cert.KernelIdeal.Value.flushed4]
  unfold out0_4
  rw [View.canon_unit_zero origin2]
  simp only [View.ld_unit_zero (S := S256x1024) origin2, View.ld_unit_zero (S := S1x2048x1024) origin3]
  obtain ⟨e0, e1, e2, e3, -⟩ := block_indices t
  funext j
  obtain ⟨p, q, rfl⟩ : ∃ (p : Fin 256) (q : Fin 1024), j = ix2 p q := ⟨j 0, j 1, eq_ix2 j⟩
  show k0_pay1 (F := Ideal) (iblk m c 0 t) (iblk m c 1 t) (iblk m c 3 t) (iblk m c 2 t) (ix2 p q)
    = G (m ((c : Thread nD τ).loc main_arg0)) (m ((c : Thread nD τ).loc main_arg1)) (m ((c : Thread nD τ).loc main_arg2)) (m ((c : Thread nD τ).loc main_arg3)) (((cfg0.win 4).blk t).view.emb (ix2 p q))
  refine (stored_is_G (iblk m c 0 t) (iblk m c 1 t) (iblk m c 3 t) (iblk m c 2 t) (m ((c : Thread nD τ).loc main_arg0)) (m ((c : Thread nD τ).loc main_arg1)) (m ((c : Thread nD τ).loc main_arg2)) (m ((c : Thread nD τ).loc main_arg3))
    (win0_4.index t (0 : Fin 2)) e2 p q
    (fun k => token_block m c t p k _ rfl rfl) (fun f k => first_block m c t f k _ rfl rfl rfl)
    (fun f k => third_block m c t f k _ rfl rfl rfl) (fun f k => second_block m c t f k _ rfl rfl rfl)).trans ?_
  refine congrArg (G (m ((c : Thread nD τ).loc main_arg0)) (m ((c : Thread nD τ).loc main_arg1)) (m ((c : Thread nD τ).loc main_arg2)) (m ((c : Thread nD τ).loc main_arg3))) (funext fun a => Fin.ext ?_)
  match a with
  | ⟨0, _⟩ => show win0_4.index t (0 : Fin 2) * 256 + p.val = win0_4.index t (0 : Fin 2) * 256 + 1 * p.val; omega
  | ⟨1, _⟩ => show q.val = win0_4.index t (1 : Fin 2) * 1024 + 1 * q.val; omega

/-- An index of the array is in point `t`'s block iff each coordinate is in the block's range on its axis. -/
theorem mem_block (t : Fin cfg0.N) (i : S16384x1024.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v4).slice (win0_4.rect t)).set ↔ _
  rw [View.set_slice_whole, Rect.mem_set_unit]
  exact Iff.rfl

/-- Every entry of the array is in some point's block: row `r` is in row block `r / 256`. -/
theorem covered (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  obtain ⟨t, ht⟩ := block_onto ⟨(i 0).val / 256, by omega⟩
  have q0 : win0_4.index t (0 : Fin 2) = (i 0).val / 256 := congrFun ht 0
  have q1 : win0_4.index t (1 : Fin 2) = 0 := congrFun ht 1
  refine ⟨t, flush0_4 t, ?_⟩
  rw [mem_block]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 1024 ≤ (i 1).val ∧ (i 1).val < win0_4.index t (1 : Fin 2) * 1024 + 1024; omega

/-- THE ARRAY after the run is `G` of the argument arrays. -/
theorem final (c : Dev nD) : (dats m 0 c).arrAt 4 cfg0.N = G (m ((c : Thread nD τ).loc main_arg0)) (m ((c : Thread nD τ).loc main_arg1)) (m ((c : Thread nD τ).loc main_arg2)) (m ((c : Thread nD τ).loc main_arg3)) :=
  (dats m 0 c).arrAt_eq_of_cover 4 (G (m ((c : Thread nD τ).loc main_arg0)) (m ((c : Thread nD τ).loc main_arg1)) (m ((c : Thread nD τ).loc main_arg2)) (m ((c : Thread nD τ).loc main_arg3))) (fun t _ => flushed_eq m c t) covered

/-- The kernel's run: the result array at `G` of the arguments, the arguments unchanged. -/
theorem run : θ_run defs (onTc (τ := τ) (main (F := Ideal))) ⟨m, fun _ => 0, ρ⟩ fun r => ∀ c : Dev nD,
      r.2.mem ((c : Thread nD τ).loc main_v4) = G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.GroupedSwiglu.Kernel

end
-- ==== Proof.RefValue.lean ====
/-
  The reference's result is `G`.

  The reference views the tokens as [8, 2048, 1024] (expert, row inside the expert, feature), contracts them with
  the first and third weight stacks expert by expert, gates, contracts with the second stack and views the result
  as [16384, 1024] again. Entry (r, c) of the result therefore sits at (r / 2048, r % 2048, c) of the batched
  product, and the token row read there is row (r / 2048) · 2048 + r % 2048 = r of the token array: the two
  reshapes cancel, and what is left is `swiglu` of row `r` with the weights of expert `r / 2048`. The reference
  spells σ as 1 / (1 + e^(-y)), which is `Ideal.logistic` by definition.
-/
import proofs.«148012_j66692252172319_2_alg».proof.Proof.Gen.ReferenceIdeal.Read
import proofs.«148012_j66692252172319_2_alg».proof.Proof.Spec

noncomputable section

open scoped BigOperators

namespace Cert.GroupedSwiglu.Reference

open Cert.ReferenceIdeal Cert.ReferenceIdeal.Read Idealize.ShloMosaic Idealize.ShloMosaic.ValueIdx Cert.GroupedSwiglu

/-- Where entry (r, c) of the result and hidden unit `f` sit in the batched hidden activations. -/
abbrev hid (r : Fin 16384) (c : Fin 1024) (f : Fin 2048) : S8x2048x2048.Idx := lidx_main_v5 (idx_main_v6 (ix2 r c)) f

/-- The token entry the first contraction reads there at step `k` is entry (r, k) of the token array. -/
theorem token_idx (r : Fin 16384) (c : Fin 1024) (f : Fin 2048) (k : Fin 1024) :
    idx_main_v0 (lidx_main_v1 (hid r c f) k) = ix2 r k := by
  have hr := r.isLt; have hc := c.isLt; have hk := k.isLt
  funext a; apply Fin.ext
  match a with
  | ⟨0, _⟩ =>
    show ((((r.val * 1024 + c.val) / 2097152) * 2048 + (r.val * 1024 + c.val) / 1024 % 2048) * 1024 + k.val) / 1024 = r.val
    omega
  | ⟨1, _⟩ =>
    show ((((r.val * 1024 + c.val) / 2097152) * 2048 + (r.val * 1024 + c.val) / 1024 % 2048) * 1024 + k.val) % 1024 = k.val
    omega

/-- The weight entry it reads is entry (r / 2048, f, k) of the stack. -/
theorem weight_idx (r : Fin 16384) (c : Fin 1024) (f : Fin 2048) (k : Fin 1024) :
    ridx_main_v1 (hid r c f) k = ix3 (expertOf r) f k := by
  have hr := r.isLt; have hc := c.isLt
  funext a; apply Fin.ext
  match a with
  | ⟨0, _⟩ => show (r.val * 1024 + c.val) / 2097152 = r.val / 2048; omega
  | ⟨1, _⟩ => rfl
  | ⟨2, _⟩ => rfl

/-- The entry of the second stack the last contraction reads at step `f` is entry (r / 2048, f, c). -/
theorem down_idx (r : Fin 16384) (c : Fin 1024) (f : Fin 2048) :
    ridx_main_v5 (idx_main_v6 (ix2 r c)) f = ix3 (expertOf r) f c := by
  have hr := r.isLt; have hc := c.isLt
  funext a; apply Fin.ext
  match a with
  | ⟨0, _⟩ => show (r.val * 1024 + c.val) / 2097152 = r.val / 2048; omega
  | ⟨1, _⟩ => rfl
  | ⟨2, _⟩ => show (r.val * 1024 + c.val) % 1024 = c.val; omega

/-- A batched projection of the tokens, read where entry (r, c) needs it, is the inner product of token row `r` with
    row `f` of the weights of expert `r / 2048`. -/
theorem proj_first (x : FVec Ideal S16384x1024 .f32) (w : FVec Ideal S8x2048x1024 .f32) (r : Fin 16384) (c : Fin 1024) (f : Fin 2048) :
    val_main_v1 (F := Ideal) x w (hid r c f) = dot (fun k => x (ix2 r k)) (fun k => w (ix3 (expertOf r) f k)) := by
  rw [val_main_v1_apply]
  unfold dot
  refine Finset.sum_congr rfl fun k _ => ?_
  rw [val_main_v0_apply, token_idx r c f k, weight_idx r c f k]

theorem proj_third (x : FVec Ideal S16384x1024 .f32) (w : FVec Ideal S8x2048x1024 .f32) (r : Fin 16384) (c : Fin 1024) (f : Fin 2048) :
    val_main_v2 (F := Ideal) x w (hid r c f) = dot (fun k => x (ix2 r k)) (fun k => w (ix3 (expertOf r) f k)) := by
  rw [val_main_v2_apply]
  unfold dot
  refine Finset.sum_congr rfl fun k _ => ?_
  rw [val_main_v0_apply]
  exact congrArg₂ (· * ·) (congrArg x (token_idx r c f k)) (congrArg w (weight_idx r c f k))

/-- The gated hidden activation at that place. -/
theorem gated (x : FVec Ideal S16384x1024 .f32) (w1 w3 : FVec Ideal S8x2048x1024 .f32) (r : Fin 16384) (c : Fin 1024) (f : Fin 2048) :
    val_main_v4 (F := Ideal) x w1 w3 (hid r c f)
      = dot (fun k => x (ix2 r k)) (fun k => w1 (ix3 (expertOf r) f k))
          * Ideal.logistic (dot (fun k => x (ix2 r k)) (fun k => w1 (ix3 (expertOf r) f k)))
          * dot (fun k => x (ix2 r k)) (fun k => w3 (ix3 (expertOf r) f k)) := by
  rw [val_main_v4_apply, val_main_v3_apply, val_main_call0_v5_apply, val_main_call0_v4_apply, val_main_call0_cst_0_apply,
    val_main_call0_v3_apply, val_main_call0_v2_apply, val_main_call0_cst_apply, val_main_call0_v1_apply,
    val_main_call0_v0_apply, proj_first x w1 r c f, proj_third x w3 r c f]
  simp only [Ideal.hostDivf_def, Ideal.hostUnary_exp_def, Ideal.hostNegf_def, Ideal.negf_def, Ideal.mulf_def, Ideal.addf_def,
    Ideal.ofBits_def, logistic_spelt]

/-- The reference's result, entry by entry. -/
theorem result_apply (x : FVec Ideal S16384x1024 .f32) (w1 w2 w3 : FVec Ideal S8x2048x1024 .f32) (r : Fin 16384) (c : Fin 1024) :
    val_main_v6 (F := Ideal) x w1 w2 w3 (ix2 r c) = entry x w1 w2 w3 r c := by
  rw [val_main_v6_apply, val_main_v5_apply]
  unfold entry swiglu
  refine Finset.sum_congr rfl fun f _ => ?_
  rw [down_idx r c f]
  exact congrArg (· * w2 (ix3 (expertOf r) f c)) (gated x w1 w3 r c f)

/-- The reference's result is `G` of the arguments. -/
theorem result_eq (x : FVec Ideal S16384x1024 .f32) (w1 w2 w3 : FVec Ideal S8x2048x1024 .f32) :
    val_main_v6 (F := Ideal) x w1 w2 w3 = G x w1 w2 w3 := by
  funext i
  obtain ⟨r, c, rfl⟩ : ∃ (r : Fin 16384) (c : Fin 1024), i = ix2 r c := ⟨i 0, i 1, eq_ix2 i⟩
  exact result_apply x w1 w2 w3 r c

end Cert.GroupedSwiglu.Reference

end
-- ==== Proof.lean ====
/-
  A grouped SwiGLU feed-forward: 16384 token rows of 1024 features, sorted into 8 experts of 2048 rows; expert `e`
  maps its rows by

      out = ((x · W1ᵀ) · σ(x · W1ᵀ) · (x · W3ᵀ)) · W2,        σ y = 1 / (1 + e^(-y)),

  with its own 2048 × 1024 matrices W1, W2, W3. The kernel walks an 8 × 8 grid (expert, tile of 256 rows), holds the
  expert's three matrices whole, and computes the tile's 256 × 1024 result by three matrix products around the
  gate. The reference views the tokens as [8, 2048, 1024], does the same three contractions batched over the expert
  axis, and views the result as [16384, 1024] again.

  On the extended reals both are the same function `G` of the four arrays (Proof/Spec.lean): entry (r, c) is
  ∑ f, (h1 f · σ (h1 f) · h3 f) · W2[e, f, c] with h1 f = ∑ k, x[r, k] · W1[e, f, k], h3 likewise with W3, e = r / 2048.
  No algebraic law is needed beyond reading each side at an index: the products are contracted in the same order
  and association on both sides, the changes of float format are the identity, a product into an accumulator of
  zeros is the plain sum, and the reference's spelling of σ is its definition. Finiteness of the inputs is not used.

  Proof/KernelBody.lean reads the body's stored block at an entry; Proof/KernelValue.lean places the blocks in the
  arrays and covers the result with them; Proof/RefValue.lean reads the reference's result at an entry. The kernel's
  reading on the extended reals is its own text, operation for operation, so `preserves` has nothing to state.
-/
import proofs.«148012_j66692252172319_2_alg».proof.Defs
import proofs.«148012_j66692252172319_2_alg».proof.Proof.Gen.Kernel
import proofs.«148012_j66692252172319_2_alg».proof.Proof.Gen.Kernel.Frame
import proofs.«148012_j66692252172319_2_alg».proof.Proof.Gen.KernelIdeal
import proofs.«148012_j66692252172319_2_alg».proof.Proof.Gen.KernelIdeal.Frame
import proofs.«148012_j66692252172319_2_alg».proof.Proof.Gen.KernelIdeal.Value
import proofs.«148012_j66692252172319_2_alg».proof.Proof.Gen.ReferenceIdeal
import proofs.«148012_j66692252172319_2_alg».proof.Proof.Gen.ReferenceIdeal.Run
import proofs.«148012_j66692252172319_2_alg».proof.Proof.Gen.ReferenceIdeal.Read
import proofs.«148012_j66692252172319_2_alg».proof.Proof.Gen.Pre_finite_inputs
import proofs.«148012_j66692252172319_2_alg».proof.Proof.KernelValue
import proofs.«148012_j66692252172319_2_alg».proof.Proof.RefValue

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its reading on the extended reals. -/
theorem frame_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- Both programs end with `G` of the arguments in their result array. -/
theorem algebraic : Cert.algebraic_KernelIdeal_ReferenceIdeal := by
  intro m ρ m' ρ' _ hagree
  refine ⟨_, Cert.GroupedSwiglu.Kernel.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v6_eq _ _ _ _).trans ?_
  rw [Cert.GroupedSwiglu.Reference.result_eq, (hagree c).1, (hagree c).2.1, (hagree c).2.2.1, (hagree c).2.2.2.1]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
